-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S64x512 : Shape := ⟨2, ![64, 512]⟩
abbrev S64 : Shape := ⟨1, ![64]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32x4096x512 .f32) (main_arg1 : FVec F S64x512 .f32) (main_arg2 : FVec F S64 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32x4096x512 : Shape := ⟨3, ![32, 4096, 512]⟩
abbrev S64x512 : Shape := ⟨2, ![64, 512]⟩
abbrev S64 : Shape := ⟨1, ![64]⟩
abbrev S_ : Shape := ⟨0, ![]⟩
abbrev S64x1 : Shape := ⟨2, ![64, 1]⟩
abbrev S32x64x512 : Shape := ⟨3, ![32, 64, 512]⟩
abbrev S1x2048x512 : Shape := ⟨3, ![1, 2048, 512]⟩
abbrev S1x64x512 : Shape := ⟨3, ![1, 64, 512]⟩
abbrev S2048x512 : Shape := ⟨2, ![2048, 512]⟩
abbrev S64x2048 : Shape := ⟨2, ![64, 2048]⟩
abbrev S2048 : Shape := ⟨1, ![2048]⟩
abbrev S2048x1 : Shape := ⟨2, ![2048, 1]⟩
abbrev S1x2048 : Shape := ⟨2, ![1, 2048]⟩

abbrev nBuf : Space → Nat
  | .hbm => 9
  | .vmem => 9
  | .smem => 0
  | _ => 0

abbrev bufTy : (tb : Table) → Fin (tcTables nBuf tb) → BufTy
  | .hbm, ⟨0, _⟩ => ⟨S32x4096x512, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x1, .f32⟩
  | .hbm, ⟨8, _⟩ => ⟨S32x64x512, .f32⟩
  | .local _ .vmem, ⟨0, _⟩ => ⟨S1x2048x512, .f32⟩
  | .local _ .vmem, ⟨1, _⟩ => ⟨S1x2048x512, .f32⟩
  | .local _ .vmem, ⟨2, _⟩ => ⟨S64x512, .f32⟩
  | .local _ .vmem, ⟨3, _⟩ => ⟨S64x1, .f32⟩
  | .local _ .vmem, ⟨4, _⟩ => ⟨S64x1, .f32⟩
  | .local _ .vmem, ⟨5, _⟩ => ⟨S1x64x512, .f32⟩
  | .local _ .vmem, ⟨6, _⟩ => ⟨S1x64x512, .f32⟩
  | .local _ .vmem, ⟨7, _⟩ => ⟨S64x512, .f32⟩
  | .local _ .vmem, ⟨8, _⟩ => ⟨S64x1, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v51 : BitVec 1 := Scalar.cmpi .eq arg1 c1_i32
  let v52 : BitVec 32 := Scalar.extui v51
  let c0_i32_24 : BitVec 32 := 0#32
  let v53 : BitVec 1 := Scalar.cmpi .ne v52 c0_i32_24
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  reduces_S2048x512_S2048 : S2048x512.Reduces [1] S2048
  shapeCasts_S2048_S2048x1 : S2048.ShapeCasts S2048x1
  transposes_S2048x1_p1_0_S1x2048 : S2048x1.Transposes [1, 0] S1x2048
  broadcasts_S1x2048_S64x2048 : S1x2048.Broadcasts S64x2048
  broadcasts_S64x1_S64x2048 : S64x1.Broadcasts S64x2048
  reduces_S64x2048_S2048 : S64x2048.Reduces [0] S2048
  shapeCasts_S2048_S1x2048 : S2048.ShapeCasts S1x2048
  reduces_S64x2048_S64 : S64x2048.Reduces [1] S64
  shapeCasts_S64_S64x1 : S64.ShapeCasts S64x1
  broadcasts_S64x1_S64x512 : S64x1.Broadcasts S64x512
  reduces_S64x512_S64 : S64x512.Reduces [1] S64
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  dot_S64x512_S2048x512_S64x2048_1_1_0_0_n_n_wf : DotDims.WF S64x512 S2048x512 S64x2048 [1] [1] [0] [0] [] []
  dot_S64x2048_S2048x512_S64x512_1_0_0_1_n_n_wf : DotDims.WF S64x2048 S2048x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x4096x512.size a
  hwx0_0 : ∀ i : grid0.Coords, EltTy.bits .f32 = 32 ∨ (Rect.block (s := S32x4096x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S32x64x512.size a
  hwx0_4 : ∀ i : grid0.Coords, EltTy.bits .f32 = 32 ∨ (Rect.block (s := S32x64x512) S1x64x512.size (cc0_transform_4 i) (hinb0_4 i)).WholeWords (EltTy.packing .f32)

variable [Facts₀]

def dot_S64x512_S2048x512_S64x2048_1_1_0_0_n_n : DotDims S64x512 S2048x512 S64x2048 where
  lhsContracting := [1]
  rhsContracting := [1]
  lhsNonContracting := [0]
  rhsNonContracting := [0]
  lhsBatch := []
  rhsBatch := []
  wf := dot_S64x512_S2048x512_S64x2048_1_1_0_0_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x4096x512 : Shape := ⟨3, ![32, 4096, 512]⟩
abbrev S64x512 : Shape := ⟨2, ![64, 512]⟩
abbrev S64 : Shape := ⟨1, ![64]⟩
abbrev S_ : Shape := ⟨0, ![]⟩
abbrev S32x4096 : Shape := ⟨2, ![32, 4096]⟩
abbrev S32x4096x1 : Shape := ⟨3, ![32, 4096, 1]⟩
abbrev S32x4096x64 : Shape := ⟨3, ![32, 4096, 64]⟩
abbrev S1x1x64 : Shape := ⟨3, ![1, 1, 64]⟩
abbrev S32x64x512 : Shape := ⟨3, ![32, 64, 512]⟩
abbrev S32x64 : Shape := ⟨2, ![32, 64]⟩
abbrev S32x64x1 : Shape := ⟨3, ![32, 64, 1]⟩
abbrev S1x64x512 : Shape := ⟨3, ![1, 64, 512]⟩

abbrev nBuf : Space → Nat
  | .hbm => 59
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S64x512, .f32⟩
  | .hbm, ⟨2, _⟩ => ⟨S64, .f32⟩
  | .hbm, ⟨3, _⟩ => ⟨S32x4096x512, .f32⟩
  | .hbm, ⟨4, _⟩ => ⟨S_, .f32⟩
  | .hbm, ⟨5, _⟩ => ⟨S32x4096, .f32⟩
  | .hbm, ⟨6, _⟩ => ⟨S32x4096x1, .f32⟩
  | .hbm, ⟨7, _⟩ => ⟨S64x512, .f32⟩
  | .hbm, ⟨8, _⟩ => ⟨S_, .f32⟩
  | .hbm, ⟨9, _⟩ => ⟨S64, .f32⟩
  | .hbm, ⟨10, _⟩ => ⟨S32x4096x64, .f32⟩
  | .hbm, ⟨11, _⟩ => ⟨S1x1x64, .f32⟩
  | .hbm, ⟨12, _⟩ => ⟨S32x4096x64, .f32⟩
  | .hbm, ⟨13, _⟩ => ⟨S32x4096x64, .f32⟩
  | .hbm, ⟨14, _⟩ => ⟨S32x4096x64, .f32⟩
  | .hbm, ⟨15, _⟩ => ⟨S_, .f32⟩
  | .hbm, ⟨16, _⟩ => ⟨S32x4096x64, .f32⟩
  | .hbm, ⟨17, _⟩ => ⟨S32x4096x64, .f32⟩
  | .hbm, ⟨18, _⟩ => ⟨S32x4096x64, .f32⟩
  | .hbm, ⟨19, _⟩ => ⟨S_, .f32⟩
  | .hbm, ⟨20, _⟩ => ⟨S32x4096x64, .f32⟩
  | .hbm, ⟨21, _⟩ => ⟨S32x4096x64, .f32⟩
  | .hbm, ⟨22, _⟩ => ⟨S32x4096x64, .f32⟩
  | .hbm, ⟨23, _⟩ => ⟨S1x1x64, .f32⟩
  | .hbm, ⟨24, _⟩ => ⟨S32x4096x64, .f32⟩
  | .hbm, ⟨25, _⟩ => ⟨S32x4096x64, .f32⟩
  | .hbm, ⟨26, _⟩ => ⟨S_, .f32⟩
  | .hbm, ⟨27, _⟩ => ⟨S32x4096, .f32⟩
  | .hbm, ⟨28, _⟩ => ⟨S_, .f32⟩
  | .hbm, ⟨29, _⟩ => ⟨S32x4096, .f32⟩
  | .hbm, ⟨30, _⟩ => ⟨S32x4096, .f32⟩
  | .hbm, ⟨31, _⟩ => ⟨S32x4096x1, .f32⟩
  | .hbm, ⟨32, _⟩ => ⟨S32x4096x64, .f32⟩
  | .hbm, ⟨33, _⟩ => ⟨S32x4096x64, .f32⟩
  | .hbm, ⟨34, _⟩ => ⟨S32x4096x64, .f32⟩
  | .hbm, ⟨35, _⟩ => ⟨S_, .f32⟩
  | .hbm, ⟨36, _⟩ => ⟨S32x4096, .f32⟩
  | .hbm, ⟨37, _⟩ => ⟨S32x4096x1, .f32⟩
  | .hbm, ⟨38, _⟩ => ⟨S32x4096x64, .f32⟩
  | .hbm, ⟨39, _⟩ => ⟨S32x4096x64, .f32⟩
  | .hbm, ⟨40, _⟩ => ⟨S32x64x512, .f32⟩
  | .hbm, ⟨41, _⟩ => ⟨S_, .f32⟩
  | .hbm, ⟨42, _⟩ => ⟨S32x64, .f32⟩
  | .hbm, ⟨43, _⟩ => ⟨S32x64x1, .f32⟩
  | .hbm, ⟨44, _⟩ => ⟨S1x64x512, .f32⟩
  | .hbm, ⟨45, _⟩ => ⟨S32x64x512, .f32⟩
  | .hbm, ⟨46, _⟩ => ⟨S32x64x512, .f32⟩
  | .hbm, ⟨47, _⟩ => ⟨S32x64x512, .f32⟩
  | .hbm, ⟨48, _⟩ => ⟨S32x64x512, .f32⟩
  | .hbm, ⟨49, _⟩ => ⟨S32x64x512, .f32⟩
  | .hbm, ⟨50, _⟩ => ⟨S_, .f32⟩
  | .hbm, ⟨51, _⟩ => ⟨S32x64, .f32⟩
  | .hbm, ⟨52, _⟩ => ⟨S32x64x1, .f32⟩
  | .hbm, ⟨53, _⟩ => ⟨S_, .f32⟩
  | .hbm, ⟨54, _⟩ => ⟨S32x64x1, .f32⟩
  | .hbm, ⟨55, _⟩ => ⟨S32x64x1, .f32⟩
  | .hbm, ⟨56, _⟩ => ⟨S32x64x1, .f32⟩
  | .hbm, ⟨57, _⟩ => ⟨S32x64x512, .f32⟩
  | .hbm, ⟨58, _⟩ => ⟨S32x64x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  reducesTo_S32x4096x512_S32x4096_d2 : S32x4096x512.ReducesTo [2] S32x4096
  h_S_ : 0 < S_.numel
  bcast_S32x4096_S32x4096x1_0_1 : S32x4096.BroadcastsInDim S32x4096x1 (![0, 1] : Fin 2 → Fin S32x4096x1.rank)
  reducesTo_S64x512_S64_d1 : S64x512.ReducesTo [1] S64
  bcast_S64_S1x1x64_2 : S64.BroadcastsInDim S1x1x64 (![2] : Fin 1 → Fin S1x1x64.rank)
  bcast_S32x4096x1_S32x4096x64_0_1_2 : S32x4096x1.BroadcastsInDim S32x4096x64 (![0, 1, 2] : Fin 3 → Fin S32x4096x64.rank)
  bcast_S1x1x64_S32x4096x64_0_1_2 : S1x1x64.BroadcastsInDim S32x4096x64 (![0, 1, 2] : Fin 3 → Fin S32x4096x64.rank)
  bcast_S_S32x4096x64 : S_.BroadcastsInDim S32x4096x64 (![] : Fin 0 → Fin S32x4096x64.rank)
  reducesTo_S32x4096x64_S32x4096_d2 : S32x4096x64.ReducesTo [2] S32x4096
  bcast_S_S32x4096 : S_.BroadcastsInDim S32x4096 (![] : Fin 0 → Fin S32x4096.rank)
  reducesTo_S32x4096x64_S32x64_d1 : S32x4096x64.ReducesTo [1] S32x64
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  reducesTo_S32x64x512_S32x64_d2 : S32x64x512.ReducesTo [2] S32x64
  bcast_S_S32x64x1 : S_.BroadcastsInDim S32x64x1 (![] : Fin 0 → Fin S32x64x1.rank)
  dot_S32x4096x512_S64x512_S32x4096x64_2_1_01_0_n_n_wf : DotDims.WF S32x4096x512 S64x512 S32x4096x64 [2] [1] [0, 1] [0] [] []
  dot_S32x4096x64_S32x4096x512_S32x64x512_1_1_2_2_0_0_wf : DotDims.WF S32x4096x64 S32x4096x512 S32x64x512 [1] [1] [2] [2] [0] [0]

variable [Facts₀]

def dot_S32x4096x512_S64x512_S32x4096x64_2_1_01_0_n_n : DotDims S32x4096x512 S64x512 S32x4096x64 where
  lhsContracting := [2]
  rhsContracting := [1]
  lhsNonContracting := [0, 1]
  rhsNonContracting := [0]
  lhsBatch := []
  rhsBatch := []
  wf := dot_S32x4096x512_S64x512_S32x4096x64_2_1_01_0_n_n_wf
def dot_S32x4096x64_S32x4096x512_S32x64x512_1_1_2_2_0_0 : DotDims S32x4096x64 S32x4096x512 S32x64x512 where
  lhsContracting := [1]
  rhsContracting := [1]
  lhsNonContracting := [2]
  rhsNonContracting := [2]
  lhsBatch := [0]
  rhsBatch := [0]
  wf := dot_S32x4096x64_S32x4096x512_S32x64x512_1_1_2_2_0_0_wf

class Facts : Prop extends Facts₀ where

variable [Facts]
-- ==== Proof.Spec.lean ====
/-
  Residual soft-assignment encoding, as one function of the three argument arrays.

  For a batch b, a row n of x[b] and a code word k, with x² the squared norm of the row, c² the squared
  norm of the code word and x·c their inner product, the squared distance is max(x² + c² − 2 (x·c), ε); the
  logit is its square root times scale[k]; the weights are the softmax of the logits over k, computed with
  the maximum subtracted. The residual sum for (b, k) is Σ_n w[b,n,k]·x[b,n,:] − (Σ_n w[b,n,k])·c[k,:], and the
  result is that vector times the reciprocal square root of max(its squared norm, ε).
  Everything is over the extended reals; the three literals stay the words the programs carry.
-/
import Idealize.ShloMosaic.PureOps.Ideal
import Idealize.ShloMosaic.Lib.ValueIdx

noncomputable section

open scoped BigOperators

namespace Cert.SoftVQ

open Idealize.ShloMosaic Idealize.ShloMosaic.ValueIdx

/-- The shapes of x, of the code book, of the scales and of the result. -/
abbrev SX : Shape := ⟨3, ![32, 4096, 512]⟩
abbrev SC : Shape := ⟨2, ![64, 512]⟩
abbrev SS : Shape := ⟨1, ![64]⟩
abbrev SO : Shape := ⟨3, ![32, 64, 512]⟩

/-- The literal 2.0. -/
def two : EReal := Ideal.ofBits .f32 0x40000000#32
/-- The literal ε (the f32 nearest 1e-12). -/
def eps : EReal := Ideal.ofBits .f32 0x2B8CBCCC#32
/-- The literal −∞ the maxima start from. -/
def ninf : EReal := Ideal.ofBits .f32 0xFF800000#32

variable (X : SX.Idx → EReal) (C : SC.Idx → EReal) (S : SS.Idx → EReal)

/-- Squared norm of code word k. -/
def c2 (k : Fin 64) : EReal := ∑ d : Fin 512, C (ix2 k d) * C (ix2 k d)

/-- Squared norm of row n of batch b. -/
def x2 (b : Fin 32) (n : Fin 4096) : EReal := ∑ d : Fin 512, X (ix3 b n d) * X (ix3 b n d)

/-- Inner product of code word k with row n of batch b. -/
def dot (b : Fin 32) (n : Fin 4096) (k : Fin 64) : EReal := ∑ d : Fin 512, C (ix2 k d) * X (ix3 b n d)

/-- The logit: the clamped distance times the scale. -/
def logit (b : Fin 32) (n : Fin 4096) (k : Fin 64) : EReal :=
  Ideal.sqrt (max (x2 X b n + c2 C k - two * dot X C b n k) eps) * S (ix1 k)

/-- The largest logit of a row, as a fold of max from −∞ over the code words. -/
def top (b : Fin 32) (n : Fin 4096) : EReal :=
  (Finset.univ : Finset (Fin 64)).fold max ninf fun k => logit X C S b n k

/-- The shifted exponential. -/
def ex (b : Fin 32) (n : Fin 4096) (k : Fin 64) : EReal := Ideal.exp (logit X C S b n k - top X C S b n)

/-- The softmax weight. -/
def wt (b : Fin 32) (n : Fin 4096) (k : Fin 64) : EReal :=
  Ideal.div (ex X C S b n k) (∑ k' : Fin 64, ex X C S b n k')

/-- The weighted sum of the rows, for (b, k), at coordinate d. -/
def wsum (b : Fin 32) (k : Fin 64) (d : Fin 512) : EReal := ∑ n : Fin 4096, wt X C S b n k * X (ix3 b n d)

/-- The total weight of code word k in batch b. -/
def wtot (b : Fin 32) (k : Fin 64) : EReal := ∑ n : Fin 4096, wt X C S b n k

/-- The residual sum. -/
def resid (b : Fin 32) (k : Fin 64) (d : Fin 512) : EReal := wsum X C S b k d - wtot X C S b k * C (ix2 k d)

/-- The normalised residual sum. -/
def enc (b : Fin 32) (k : Fin 64) (d : Fin 512) : EReal :=
  resid X C S b k d * Ideal.rsqrt (max (∑ d' : Fin 512, resid X C S b k d' * resid X C S b k d') eps)

/-- The whole result array. -/
def G : SO.Idx → EReal := fun i => enc X C S (i 0) (i 1) (i 2)

theorem G_apply (b : Fin 32) (k : Fin 64) (d : Fin 512) : G X C S (ix3 b k d) = enc X C S b k d := rfl

/-- A sum over the 4096 rows is the sum over the first 2048 plus the sum over the last 2048. -/
theorem sum_halves (f : Fin 4096 → EReal) :
    ∑ n : Fin 4096, f n
      = (∑ r : Fin 2048, f ⟨r.val, by have := r.isLt; omega⟩) + ∑ r : Fin 2048, f ⟨2048 + r.val, by have := r.isLt; omega⟩ := by
  have h := Fin.sum_univ_add (M := EReal) (a := 2048) (b := 2048) fun i : Fin (2048 + 2048) => f ⟨i.val, i.isLt⟩
  exact h

end Cert.SoftVQ

end
-- ==== Proof.RefSide.lean ====
/-
  The reference program computes the residual soft-assignment encoding.

  Each intermediate array of the reference is read at explicit coordinates (b, n, k, d) and identified with
  the corresponding quantity of the specification: squared norms, inner products, logits, the row maximum,
  softmax weights, weighted sums, residuals and the normalised result.
-/
import proofs.«156265_j32469952758287_2_alg».proof.Proof.Gen.ReferenceIdeal.Read
import proofs.«156265_j32469952758287_2_alg».proof.Proof.Spec

noncomputable section

open scoped BigOperators

namespace Cert.SoftVQ.Ref

open Idealize.ShloMosaic Idealize.ShloMosaic.ValueIdx Cert.ReferenceIdeal Cert.ReferenceIdeal.Gen Cert.ReferenceIdeal.Read

variable (X : (⟨Cert.ReferenceIdeal.S32x4096x512, .f32⟩ : BufTy).Contents (Elt Ideal))
  (C : (⟨Cert.ReferenceIdeal.S64x512, .f32⟩ : BufTy).Contents (Elt Ideal))
  (S : (⟨Cert.ReferenceIdeal.S64, .f32⟩ : BufTy).Contents (Elt Ideal))

/-! ## Squared norms -/

/-- The k-th element summed for row (b, n) sits at (b, n, k). -/
theorem idx_v1 (b : Fin 32) (n : Fin 4096) (k : Fin 512) : idx_main_v1 (ix2 b n) k = ix3 b n k :=
  funext fun a => Fin.ext (by match a with | ⟨0, _⟩ => rfl | ⟨1, _⟩ => rfl | ⟨2, _⟩ => rfl)

/-- The first reduction is the squared norm of row n of batch b. -/
theorem v1_eq (b : Fin 32) (n : Fin 4096) : val_main_v1 (F := Ideal) X (ix2 b n) = Cert.SoftVQ.x2 X b n := by
  rw [val_main_v1_apply, val_main_cst_apply, Ideal.ofBits_def, Ideal.ofBits_zero_f32, zero_add]
  unfold Cert.SoftVQ.x2
  refine Finset.sum_congr rfl fun d _ => ?_
  rw [val_main_v0_apply, Ideal.mulf_def, idx_v1]

/-- The d-th element summed for code word k sits at (k, d). -/
theorem idx_v4 (k : Fin 64) (d : Fin 512) : idx_main_v4 (ix1 k) d = ix2 k d :=
  funext fun a => Fin.ext (by match a with | ⟨0, _⟩ => rfl | ⟨1, _⟩ => rfl)

/-- The second reduction is the squared norm of code word k. -/
theorem v4_eq (k : Fin 64) : val_main_v4 (F := Ideal) C (ix1 k) = Cert.SoftVQ.c2 C k := by
  rw [val_main_v4_apply, val_main_cst_0_apply, Ideal.ofBits_def, Ideal.ofBits_zero_f32, zero_add]
  unfold Cert.SoftVQ.c2
  refine Finset.sum_congr rfl fun d _ => ?_
  rw [val_main_v3_apply, Ideal.mulf_def, idx_v4]

/-! ## Inner products -/

theorem lidx_v5 (b : Fin 32) (n : Fin 4096) (k : Fin 64) (d : Fin 512) : lidx_main_v5 (ix3 b n k) d = ix3 b n d :=
  funext fun a => Fin.ext (by match a with | ⟨0, _⟩ => rfl | ⟨1, _⟩ => rfl | ⟨2, _⟩ => rfl)

theorem ridx_v5 (b : Fin 32) (n : Fin 4096) (k : Fin 64) (d : Fin 512) : ridx_main_v5 (ix3 b n k) d = ix2 k d :=
  funext fun a => Fin.ext (by match a with | ⟨0, _⟩ => rfl | ⟨1, _⟩ => rfl)

/-- The first contraction is the inner product of code word k with row n of batch b. -/
theorem v5_eq (b : Fin 32) (n : Fin 4096) (k : Fin 64) :
    val_main_v5 (F := Ideal) X C (ix3 b n k) = Cert.SoftVQ.dot X C b n k := by
  rw [val_main_v5_apply]
  unfold Cert.SoftVQ.dot
  refine Finset.sum_congr rfl fun d _ => ?_
  rw [lidx_v5, ridx_v5, mul_comm]

/-! ## Logits -/

theorem idx_v2_v7 (b : Fin 32) (n : Fin 4096) (k : Fin 64) : idx_main_v2 (idx_main_v7 (ix3 b n k)) = ix2 b n :=
  funext fun a => Fin.ext (by match a with | ⟨0, _⟩ => rfl | ⟨1, _⟩ => rfl)

theorem idx_v6_v8 (b : Fin 32) (n : Fin 4096) (k : Fin 64) : idx_main_v6 (idx_main_v8 (ix3 b n k)) = ix1 k :=
  funext fun a => Fin.ext (by match a with | ⟨0, _⟩ => rfl)

theorem idx_v16_v17 (b : Fin 32) (n : Fin 4096) (k : Fin 64) : idx_main_v16 (idx_main_v17 (ix3 b n k)) = ix1 k :=
  funext fun a => Fin.ext (by match a with | ⟨0, _⟩ => rfl)

/-- The row norms spread along the code words. -/
theorem v7_eq (b : Fin 32) (n : Fin 4096) (k : Fin 64) : val_main_v7 (F := Ideal) X (ix3 b n k) = Cert.SoftVQ.x2 X b n := by
  rw [val_main_v7_apply, val_main_v2_apply, idx_v2_v7, v1_eq]

/-- The code-word norms spread along batches and rows. -/
theorem v8_eq (b : Fin 32) (n : Fin 4096) (k : Fin 64) : val_main_v8 (F := Ideal) C (ix3 b n k) = Cert.SoftVQ.c2 C k := by
  rw [val_main_v8_apply, val_main_v6_apply, idx_v6_v8, v4_eq]

/-- The literal two, everywhere. -/
theorem v10_eq (i : S32x4096x64.Idx) : val_main_v10 (F := Ideal) i = Cert.SoftVQ.two := by
  rw [val_main_v10_apply, val_main_cst_1_apply, Ideal.ofBits_def]
  rfl

/-- The literal ε, everywhere. -/
theorem v13_eq (i : S32x4096x64.Idx) : val_main_v13 (F := Ideal) i = Cert.SoftVQ.eps := by
  rw [val_main_v13_apply, val_main_cst_2_apply, Ideal.ofBits_def]
  rfl

/-- The scales spread along batches and rows. -/
theorem v17_eq (b : Fin 32) (n : Fin 4096) (k : Fin 64) : val_main_v17 (F := Ideal) S (ix3 b n k) = S (ix1 k) := by
  rw [val_main_v17_apply, val_main_v16_apply, idx_v16_v17]

/-- The clamped distance times the scale is the logit. -/
theorem v18_eq (b : Fin 32) (n : Fin 4096) (k : Fin 64) :
    val_main_v18 (F := Ideal) X C S (ix3 b n k) = Cert.SoftVQ.logit X C S b n k := by
  rw [val_main_v18_apply, val_main_v15_apply, val_main_v14_apply, val_main_v12_apply, val_main_v9_apply, val_main_v11_apply,
    v7_eq, v8_eq, v10_eq, v5_eq, v13_eq, v17_eq]
  simp only [Ideal.mulf_def, Ideal.addf_def, Ideal.subf_def, Ideal.maximumf_def, Ideal.hostUnary_sqrt_def]
  rfl

/-! ## The row maximum -/

/-- Dropping the code-word axis of a (batch, row, code word) array leaves (batch, row). -/
theorem reduces_k : S32x4096x64.Reduces [2] S32x4096 := by decide

/-- Row (b, n) with code word k put back on the dropped axis is (b, n, k). -/
theorem lift_k (b : Fin 32) (n : Fin 4096) (k : Fin 64) : reduces_k.lift (ix2 b n) k = ix3 b n k :=
  funext fun c => Fin.ext (by match c with | ⟨0, _⟩ => rfl | ⟨1, _⟩ => rfl | ⟨2, _⟩ => rfl)

/-- A maximum-reduction over the code words, started at −∞, is at row (b, n) the fold of max from −∞
    over that row's 64 entries. -/
theorem reduce_max_row (y : (⟨S32x4096x64, .f32⟩ : BufTy).Contents (Elt Ideal)) (b : Fin 32) (n : Fin 4096) :
    (Host.reduce (FloatOps.maximumf (F := Ideal) (φ := .f32)) y (val_main_cst_3 (F := Ideal))
        reducesTo_S32x4096x64_S32x4096_d2 h_S_ : (⟨S32x4096, .f32⟩ : BufTy).Contents (Elt Ideal)) (ix2 b n)
      = (Finset.univ : Finset (Fin 64)).fold max Cert.SoftVQ.ninf (fun k => y (ix3 b n k)) := by
  refine (Host.reduce_eq_fold_single (FloatOps.maximumf (F := Ideal) (φ := .f32)) y (val_main_cst_3 (F := Ideal))
    reducesTo_S32x4096x64_S32x4096_d2 reduces_k h_S_ (ix2 b n)).trans ?_
  have hf : (y ∘ reduces_k.lift (ix2 b n)) = fun k : Fin 64 => y (ix3 b n k) :=
    funext fun k => congrArg y (lift_k b n k)
  exact congrArg (fun f => Finset.fold max Cert.SoftVQ.ninf f (Finset.univ : Finset (Fin 64))) hf

/-- The maximum-reduction of the logits is the fold the specification names. -/
theorem v19_eq (b : Fin 32) (n : Fin 4096) :
    val_main_v19 (F := Ideal) X C S (ix2 b n) = Cert.SoftVQ.top X C S b n := by
  unfold val_main_v19
  rw [reduce_max_row]
  unfold Cert.SoftVQ.top
  exact congrArg (fun f => Finset.fold max Cert.SoftVQ.ninf f (Finset.univ : Finset (Fin 64)))
    (funext fun k => v18_eq X C S b n k)

/-- The literal −∞, everywhere. -/
theorem v20_eq (i : S32x4096.Idx) : val_main_v20 (F := Ideal) i = Cert.SoftVQ.ninf := by
  rw [val_main_v20_apply, val_main_cst_4_apply, Ideal.ofBits_def]
  rfl

/-- A fold of max is at least its starting value. -/
theorem start_le_top (b : Fin 32) (n : Fin 4096) : Cert.SoftVQ.ninf ≤ Cert.SoftVQ.top X C S b n := by
  unfold Cert.SoftVQ.top
  exact (Finset.le_fold_max Cert.SoftVQ.ninf).mpr (Or.inl le_rfl)

/-- Taking the maximum with −∞ once more changes nothing. -/
theorem v21_eq (b : Fin 32) (n : Fin 4096) :
    val_main_v21 (F := Ideal) X C S (ix2 b n) = Cert.SoftVQ.top X C S b n := by
  rw [val_main_v21_apply, v20_eq, v19_eq, Ideal.maximumf_def]
  exact max_eq_right (start_le_top X C S b n)

/-! ## Softmax weights -/

theorem idx_v22_v23 (b : Fin 32) (n : Fin 4096) (k : Fin 64) : idx_main_v22 (idx_main_v23 (ix3 b n k)) = ix2 b n :=
  funext fun a => Fin.ext (by match a with | ⟨0, _⟩ => rfl | ⟨1, _⟩ => rfl)

theorem idx_v27_v28 (b : Fin 32) (n : Fin 4096) (k : Fin 64) : idx_main_v27 (idx_main_v28 (ix3 b n k)) = ix2 b n :=
  funext fun a => Fin.ext (by match a with | ⟨0, _⟩ => rfl | ⟨1, _⟩ => rfl)

theorem idx_v26 (b : Fin 32) (n : Fin 4096) (k : Fin 64) : idx_main_v26 (ix2 b n) k = ix3 b n k :=
  funext fun a => Fin.ext (by match a with | ⟨0, _⟩ => rfl | ⟨1, _⟩ => rfl | ⟨2, _⟩ => rfl)

/-- The exponential of the logit minus the row maximum. -/
theorem v25_eq (b : Fin 32) (n : Fin 4096) (k : Fin 64) :
    val_main_v25 (F := Ideal) X C S (ix3 b n k) = Cert.SoftVQ.ex X C S b n k := by
  rw [val_main_v25_apply, val_main_v24_apply, v18_eq, val_main_v23_apply, val_main_v22_apply, idx_v22_v23, v21_eq,
    Ideal.subf_def, Ideal.hostUnary_exp_def]
  rfl

/-- The row's sum of shifted exponentials. -/
theorem v26_eq (b : Fin 32) (n : Fin 4096) :
    val_main_v26 (F := Ideal) X C S (ix2 b n) = ∑ k' : Fin 64, Cert.SoftVQ.ex X C S b n k' := by
  rw [val_main_v26_apply, val_main_cst_5_apply, Ideal.ofBits_def, Ideal.ofBits_zero_f32, zero_add]
  refine Finset.sum_congr rfl fun k _ => ?_
  rw [idx_v26, v25_eq]

/-- The softmax weight. -/
theorem v29_eq (b : Fin 32) (n : Fin 4096) (k : Fin 64) :
    val_main_v29 (F := Ideal) X C S (ix3 b n k) = Cert.SoftVQ.wt X C S b n k := by
  rw [val_main_v29_apply, v25_eq, val_main_v28_apply, val_main_v27_apply, idx_v27_v28, v26_eq, Ideal.hostDivf_def]
  rfl

/-! ## Weighted sums over the rows -/

theorem lidx_v30 (b : Fin 32) (k : Fin 64) (d : Fin 512) (n : Fin 4096) : lidx_main_v30 (ix3 b k d) n = ix3 b n k :=
  funext fun a => Fin.ext (by match a with | ⟨0, _⟩ => rfl | ⟨1, _⟩ => rfl | ⟨2, _⟩ => rfl)

theorem ridx_v30 (b : Fin 32) (k : Fin 64) (d : Fin 512) (n : Fin 4096) : ridx_main_v30 (ix3 b k d) n = ix3 b n d :=
  funext fun a => Fin.ext (by match a with | ⟨0, _⟩ => rfl | ⟨1, _⟩ => rfl | ⟨2, _⟩ => rfl)

theorem idx_v31 (b : Fin 32) (k : Fin 64) (n : Fin 4096) : idx_main_v31 (ix2 b k) n = ix3 b n k :=
  funext fun a => Fin.ext (by match a with | ⟨0, _⟩ => rfl | ⟨1, _⟩ => rfl | ⟨2, _⟩ => rfl)

/-- The second contraction is the weighted sum of the rows. -/
theorem v30_eq (b : Fin 32) (k : Fin 64) (d : Fin 512) :
    val_main_v30 (F := Ideal) X C S (ix3 b k d) = Cert.SoftVQ.wsum X C S b k d := by
  rw [val_main_v30_apply]
  unfold Cert.SoftVQ.wsum
  refine Finset.sum_congr rfl fun n _ => ?_
  rw [lidx_v30, ridx_v30, v29_eq]

/-- The total weight of a code word in a batch. -/
theorem v31_eq (b : Fin 32) (k : Fin 64) :
    val_main_v31 (F := Ideal) X C S (ix2 b k) = Cert.SoftVQ.wtot X C S b k := by
  rw [val_main_v31_apply, val_main_cst_6_apply, Ideal.ofBits_def, Ideal.ofBits_zero_f32, zero_add]
  unfold Cert.SoftVQ.wtot
  refine Finset.sum_congr rfl fun n _ => ?_
  rw [idx_v31, v29_eq]

/-! ## The residual sum -/

theorem idx_v32_v34 (b : Fin 32) (k : Fin 64) (d : Fin 512) : idx_main_v32 (idx_main_v34 (ix3 b k d)) = ix2 b k :=
  funext fun a => Fin.ext (by match a with | ⟨0, _⟩ => rfl | ⟨1, _⟩ => rfl)

theorem idx_v33_v35 (b : Fin 32) (k : Fin 64) (d : Fin 512) : idx_main_v33 (idx_main_v35 (ix3 b k d)) = ix2 k d :=
  funext fun a => Fin.ext (by match a with | ⟨0, _⟩ => rfl | ⟨1, _⟩ => rfl)

/-- The weighted sum minus the total weight times the code word. -/
theorem v37_eq (b : Fin 32) (k : Fin 64) (d : Fin 512) :
    val_main_v37 (F := Ideal) X C S (ix3 b k d) = Cert.SoftVQ.resid X C S b k d := by
  rw [val_main_v37_apply, v30_eq, val_main_v36_apply, val_main_v34_apply, val_main_v32_apply, idx_v32_v34, v31_eq,
    val_main_v35_apply, val_main_v33_apply, idx_v33_v35, Ideal.mulf_def, Ideal.subf_def]
  rfl

/-! ## Normalisation -/

theorem idx_v39 (b : Fin 32) (k : Fin 64) (d : Fin 512) : idx_main_v39 (ix2 b k) d = ix3 b k d :=
  funext fun a => Fin.ext (by match a with | ⟨0, _⟩ => rfl | ⟨1, _⟩ => rfl | ⟨2, _⟩ => rfl)

theorem idx_v40_v44 (b : Fin 32) (k : Fin 64) (d : Fin 512) : idx_main_v40 (idx_main_v44 (ix3 b k d)) = ix2 b k :=
  funext fun a => Fin.ext (by match a with | ⟨0, _⟩ => rfl | ⟨1, _⟩ => rfl)

/-- The squared norm of the residual vector. -/
theorem v39_eq (b : Fin 32) (k : Fin 64) :
    val_main_v39 (F := Ideal) X C S (ix2 b k)
      = ∑ d' : Fin 512, Cert.SoftVQ.resid X C S b k d' * Cert.SoftVQ.resid X C S b k d' := by
  rw [val_main_v39_apply, val_main_cst_7_apply, Ideal.ofBits_def, Ideal.ofBits_zero_f32, zero_add]
  refine Finset.sum_congr rfl fun d _ => ?_
  rw [val_main_v38_apply, idx_v39, v37_eq, Ideal.mulf_def]

/-- The literal ε, everywhere. -/
theorem v41_eq (i : S32x64x1.Idx) : val_main_v41 (F := Ideal) i = Cert.SoftVQ.eps := by
  rw [val_main_v41_apply, val_main_cst_8_apply, Ideal.ofBits_def]
  rfl

/-- The residual times the reciprocal square root of its clamped squared norm. -/
theorem v45_eq (b : Fin 32) (k : Fin 64) (d : Fin 512) :
    val_main_v45 (F := Ideal) X C S (ix3 b k d) = Cert.SoftVQ.enc X C S b k d := by
  rw [val_main_v45_apply, v37_eq, val_main_v44_apply, val_main_v43_apply, val_main_v42_apply, val_main_v40_apply,
    idx_v40_v44, v39_eq, v41_eq, Ideal.mulf_def, Ideal.maximumf_def, Ideal.hostUnary_rsqrt_def]
  rfl

/-! ## The whole array -/

/-- The reference program's result is the specification. -/
theorem ref_eq (X : (⟨Cert.ReferenceIdeal.S32x4096x512, .f32⟩ : BufTy).Contents (Elt Ideal))
    (C : (⟨Cert.ReferenceIdeal.S64x512, .f32⟩ : BufTy).Contents (Elt Ideal))
    (S : (⟨Cert.ReferenceIdeal.S64, .f32⟩ : BufTy).Contents (Elt Ideal)) :
    Cert.ReferenceIdeal.Read.val_main_v45 (F := Ideal) X C S = Cert.SoftVQ.G X C S := by
  funext i
  obtain ⟨b, k, d, rfl⟩ : ∃ (b : Fin 32) (k : Fin 64) (d : Fin 512), i = ix3 b k d := ⟨i 0, i 1, i 2, eq_ix3 i⟩
  rw [v45_eq, Cert.SoftVQ.G_apply]

end Cert.SoftVQ.Ref

end
-- ==== Proof.Pieces.lean ====
/-
  The body of the encoding kernel, case by case: what a run of the body at a first row tile (the two
  accumulators reset, then updated) and at a last row tile (the accumulators updated, then the output block
  computed from them) leaves in each buffer, as the body's own arithmetic applied to the blocks it loaded.
-/
import proofs.«156265_j32469952758287_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1x2048x512 .f32) (harg2 : arg2.IsWhole)
  (arg3 : Memref sig .tc .vmem S64x512 .f32) (harg3 : arg3.IsWhole)
  (arg4 : Memref sig .tc .vmem S64x1 .f32) (harg4 : arg4.IsWhole)
  (arg5 : Memref sig .tc .vmem S64x1 .f32) (harg5 : arg5.IsWhole)
  (arg6 : Memref sig .tc .vmem S1x64x512 .f32) (harg6 : arg6.IsWhole)
  (arg7 : Memref sig .tc .vmem S64x512 .f32) (harg7 : arg7.IsWhole)
  (arg8 : Memref sig .tc .vmem S64x1 .f32) (harg8 : arg8.IsWhole)
  (x0 : Vec F S1x2048x512 .f32) (x1 : Vec F S64x512 .f32) (x2 : Vec F S64x1 .f32) (x3 : Vec F S64x1 .f32)

/-! What each case of the body leaves in the two accumulators and in the output block, as the body's
    arithmetic (the payload terms) applied to the blocks it loads. -/

/-- At a first row tile, the weighted-sum accumulator ends at zero plus the tile's contribution. -/
theorem accE_A (hc0 : cond0_0 i) (hc1 : ¬cond0_1 i) :
    sout0_A_0 c i arg2 harg2 arg3 harg3 arg4 harg4 arg5 harg5 arg6 harg6 arg7 harg7 arg8 harg8 hc0 hc1 x0 x1 x2 x3
      = k0_pay2 (k0_pay7 x0) (k0_pay8 x0 x1 x2 x3) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x512) hz2, View.readCov_unit_zero (S := S64x512) _ hz2]
  simp only [View.readAt_eq_ld, harg2.read_unread, harg3.read_unread, harg4.read_unread, harg5.read_unread,
    View.ld_unit_zero (S := S1x2048x512) hz3, View.ld_unit_zero (S := S64x512) hz2, View.ld_unit_zero (S := S64x1) hz2]

/-- At a first row tile, the weight-total accumulator ends at zero plus the tile's row sums. -/
theorem accW_A (hc0 : cond0_0 i) (hc1 : ¬cond0_1 i) :
    sout0_A_1 c i arg2 harg2 arg3 harg3 arg4 harg4 arg5 harg5 arg6 harg6 arg7 harg7 arg8 harg8 hc0 hc1 x0 x1 x2 x3
      = k0_pay1 (k0_pay9 x0 x1 x2 x3) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x1) hz2, View.readCov_unit_zero (S := S64x1) _ hz2]
  simp only [View.readAt_eq_ld, harg2.read_unread, harg3.read_unread, harg4.read_unread, harg5.read_unread,
    View.ld_unit_zero (S := S1x2048x512) hz3, View.ld_unit_zero (S := S64x512) hz2, View.ld_unit_zero (S := S64x1) hz2]

variable (xs0 : Vec F S64x512 .f32) (xs1 : Vec F S64x1 .f32)

/-- At a last row tile, the weighted-sum accumulator ends at what it held plus the tile's contribution. -/
theorem accE_B (hc0 : ¬cond0_0 i) (hc1 : cond0_1 i) :
    sout0_B_0 c i arg2 harg2 arg3 harg3 arg4 harg4 arg5 harg5 arg6 harg6 arg7 harg7 arg8 harg8 hc0 hc1 x0 x1 x2 x3 xs0 xs1
      = k0_pay2 (k0_pay7 x0) (k0_pay8 x0 x1 x2 x3) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S64x512) hz2]
  simp only [View.readAt_eq_ld, harg2.read_unread, harg3.read_unread, harg4.read_unread, harg5.read_unread, harg7.read_unread,
    View.ld_unit_zero (S := S1x2048x512) hz3, View.ld_unit_zero (S := S64x512) hz2, View.ld_unit_zero (S := S64x1) hz2]

/-- At a last row tile, the weight-total accumulator ends at what it held plus the tile's row sums. -/
theorem accW_B (hc0 : ¬cond0_0 i) (hc1 : cond0_1 i) :
    sout0_B_1 c i arg2 harg2 arg3 harg3 arg4 harg4 arg5 harg5 arg6 harg6 arg7 harg7 arg8 harg8 hc0 hc1 x0 x1 x2 x3 xs0 xs1
      = k0_pay1 (k0_pay9 x0 x1 x2 x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S64x1) hz2]
  simp only [View.readAt_eq_ld, harg2.read_unread, harg3.read_unread, harg4.read_unread, harg5.read_unread, harg8.read_unread,
    View.ld_unit_zero (S := S1x2048x512) hz3, View.ld_unit_zero (S := S64x512) hz2, View.ld_unit_zero (S := S64x1) hz2]

/-- At a last row tile, the output block ends at the normalised residual of the two updated accumulators. -/
theorem out_B (hc0 : ¬cond0_0 i) (hc1 : cond0_1 i) :
    out0_B_4 c i arg2 harg2 arg3 harg3 arg4 harg4 arg5 harg5 arg6 harg6 arg7 harg7 arg8 harg8 hc0 hc1 x0 x1 x2 x3 xs0 xs1
      = k0_pay3 x1 (k0_pay2 (k0_pay7 x0) (k0_pay8 x0 x1 x2 x3) xs0) (k0_pay1 (k0_pay9 x0 x1 x2 x3) xs1) := by
  unfold out0_B_4
  rw [View.read_writes_eq_canon _ _ _ (cover0_B_4 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1x64x512) hz3]
  rw [View.readCov_unit_zero (S := S64x512) _ hz2, View.readCov_unit_zero (S := S64x1) _ hz2]
  simp only [View.readAt_eq_ld, harg2.read_unread, harg3.read_unread, harg4.read_unread, harg5.read_unread, harg7.read_unread, harg8.read_unread,
    View.ld_unit_zero (S := S1x2048x512) hz3, View.ld_unit_zero (S := S64x512) hz2, View.ld_unit_zero (S := S64x1) hz2]

end Cert.KernelIdeal.Pieces

end
-- ==== Proof.Rows.lean ====
/-
  The softmax weights of ONE row of x, as a function of that row alone.

  Given a row xr of 512 numbers, the code book, the squared norms cc of the code words and the scales sv, the
  logit of code word k is sqrt(max(|xr|² + cc k − 2 (c_k · xr), ε)) · sv k, and the weight is the softmax of the
  logits over k with the maximum subtracted. The weights of row (b, n) of the whole problem are these, at the
  row x[b, n, :], with cc the code words' squared norms and sv the scales: the same expression.
-/
import proofs.«156265_j32469952758287_2_alg».proof.Proof.Spec

noncomputable section

open scoped BigOperators

namespace Cert.SoftVQ

open Idealize.ShloMosaic Idealize.ShloMosaic.ValueIdx

variable (xr : Fin 512 → EReal) (C : SC.Idx → EReal) (cc : Fin 64 → EReal) (sv : Fin 64 → EReal)

/-- The logit of code word k for the row. -/
def rlogit (k : Fin 64) : EReal :=
  Ideal.sqrt (max ((∑ d : Fin 512, xr d * xr d) + cc k - two * ∑ d : Fin 512, C (ix2 k d) * xr d) eps) * sv k

/-- The largest logit of the row. -/
def rtop : EReal := (Finset.univ : Finset (Fin 64)).fold max ninf fun k => rlogit xr C cc sv k

/-- The shifted exponential. -/
def rex (k : Fin 64) : EReal := Ideal.exp (rlogit xr C cc sv k - rtop xr C cc sv)

/-- The softmax weight of code word k for the row. -/
def rwt (k : Fin 64) : EReal := Ideal.div (rex xr C cc sv k) (∑ k' : Fin 64, rex xr C cc sv k')

/-- The weights of the whole problem are the row weights at the problem's rows. -/
theorem wt_eq_rwt (X : SX.Idx → EReal) (S : SS.Idx → EReal) (b : Fin 32) (n : Fin 4096) (k : Fin 64) :
    wt X C S b n k = rwt (fun d => X (ix3 b n d)) C (c2 C) (fun k => S (ix1 k)) k := rfl

/-- A vector of 512 numbers times the reciprocal square root of max(its squared norm, ε). -/
def normalise (e : Fin 512 → EReal) (d : Fin 512) : EReal :=
  e d * Ideal.rsqrt (max (∑ d' : Fin 512, e d' * e d') eps)

/-- The result is the normalised residual vector. -/
theorem enc_eq_normalise (X : SX.Idx → EReal) (S : SS.Idx → EReal) (b : Fin 32) (k : Fin 64) (d : Fin 512) :
    enc X C S b k d = normalise (fun d' => resid X C S b k d') d := rfl

end Cert.SoftVQ

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Payload.lean ====
/-
  The arithmetic of the encoding kernel's body read at one index, over the extended reals: the block of x as a
  matrix, the softmax weights of a row tile (code words down the rows, the tile's rows along the lanes), their
  row sums, the two accumulator updates, and the final normalisation.
-/
import proofs.«156265_j32469952758287_2_alg».proof.Proof.Gen.KernelIdeal.Skeleton
import proofs.«156265_j32469952758287_2_alg».proof.Proof.Rows
import proofs.«156265_j32469952758287_2_alg».proof.Proof.LibDotNT
import proofs.«156265_j32469952758287_2_alg».proof.Proof.LibPlainDot
import proofs.«156265_j32469952758287_2_alg».proof.Proof.LibAxisFold
import proofs.«156265_j32469952758287_2_alg».proof.Proof.LibColumnSum
import proofs.«156265_j32469952758287_2_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.SoftVQ

/-- The first product contracts the second axis of both operands. -/
theorem isNT : Cert.DotNT.IsNT dot_S64x512_S2048x512_S64x2048_1_1_0_0_n_n := ⟨rfl, rfl, rfl, rfl, rfl, rfl⟩

/-- The second product is a plain one. -/
theorem isPlain : Cert.PlainDot.IsPlain dot_S64x2048_S2048x512_S64x512_1_0_0_1_n_n := ⟨rfl, rfl, rfl, rfl, rfl, rfl⟩

variable (v3 : Vec Ideal S1x2048x512 .f32) (v5 : Vec Ideal S64x512 .f32) (v6 v8 : Vec Ideal S64x1 .f32)

/-- The block of x with its unit axis dropped: entry (r, d) is the block's (0, r, d). -/
theorem pay6_apply (r : Fin 2048) (d : Fin 512) : k0_pay6 (F := Ideal) v3 (ix2 r d) = v3 (ix3 (0 : Fin 1) r d) :=
  shapeCast_1ab_ab_apply v3 _ r d

/-- The same after the change of format, which is the identity. -/
theorem pay7_apply (r : Fin 2048) (d : Fin 512) : k0_pay7 (F := Ideal) v3 (ix2 r d) = v3 (ix3 (0 : Fin 1) r d) :=
  pay6_apply v3 r d

/-- The squared norms of the tile's rows, laid along the lanes and repeated down the rows. -/
theorem sqnorm_apply (v4 : FVec Ideal S2048x512 .f32) (h : S2048x512.Reduces [1] S2048) (hφ : FKind.Formats .f32)
    (hacc : (0x00000000#32 : BitVec (FTy.f32).bits) = FKind.add.neutral .f32 hφ) (hc : S2048.ShapeCasts S2048x1)
    (ht : S2048x1.Transposes [1, 0] S1x2048) (hb : S1x2048.Broadcasts S64x2048) (k : Fin 64) (r : Fin 2048) :
    broadcastTo S64x2048 (transpose S1x2048 [1, 0] (shapeCast S2048x1 (multiReduction .add [1] S2048 (mulf v4 v4) 0x00000000#32 h hφ hacc) hc) ht) hb (ix2 k r)
      = ∑ d : Fin 512, v4 (ix2 r d) * v4 (ix2 r d) :=
  (broadcastTo_1b_ab_apply _ hb k r).trans ((transpose_ix2_apply _ ht (0 : Fin 1) r).trans
    ((Cert.Column.shapeCast_a_a1_apply _ hc r (0 : Fin 1)).trans (Cert.AxisFold.row_sum _ h hφ hacc r)))

/-- A column of per-code-word numbers repeated along the lanes. -/
theorem col_apply (v : Vec Ideal S64x1 .f32) (hc : S64x1.ShapeCasts S64x1) (hb : S64x1.Broadcasts S64x2048) (k : Fin 64) (r : Fin 2048) :
    broadcastTo S64x2048 (shapeCast S64x1 v hc) hb (ix2 k r) = v (ix2 k (0 : Fin 1)) :=
  (Cert.Column.broadcastTo_a1_ab_apply _ hb k r).trans (congrFun (shapeCast_self v hc) _)

/-- The inner products of the code words with the tile's rows. -/
theorem dots_apply (h1 : FTy.bf16.bits < FTy.f32.bits) (k : Fin 64) (r : Fin 2048) :
    matmul dot_S64x512_S2048x512_S64x2048_1_1_0_0_n_n none (truncf .bf16 v5 h1) (k0_pay7 (F := Ideal) v3) (constant S64x2048 .f32 0x00000000#32) (ix2 k r)
      = ∑ d : Fin 512, v5 (ix2 k d) * v3 (ix3 (0 : Fin 1) r d) :=
  (Cert.DotNT.matmul_zero_apply isNT none _ _ k r).trans
    (Finset.sum_congr rfl fun d _ => congrArg (v5 (ix2 k d) * ·) (pay7_apply v3 r d))

/-- The largest entry of column r of a 64-row matrix, as a fold of max from −∞. -/
def colTop (L : FVec Ideal S64x2048 .f32) (r : Fin 2048) : EReal :=
  (Finset.univ : Finset (Fin 64)).fold max ninf fun k' => L (ix2 k' r)

/-- The column maxima, repeated down the rows. -/
theorem coltop_apply (L : FVec Ideal S64x2048 .f32) (h1 : S64x2048.Reduces [0] S2048) (hφ1 : FKind.Formats .f32)
    (hacc1 : (0xFF800000#32 : BitVec (FTy.f32).bits) = FKind.maximumf.neutral .f32 hφ1) (hc : S2048.ShapeCasts S1x2048)
    (hb : S1x2048.Broadcasts S64x2048) (k : Fin 64) (r : Fin 2048) :
    broadcastTo S64x2048 (shapeCast S1x2048 (multiReduction .maximumf [0] S2048 L 0xFF800000#32 h1 hφ1 hacc1) hc) hb (ix2 k r) = colTop L r :=
  (broadcastTo_1b_ab_apply _ hb k r).trans ((shapeCast_a_1a_apply _ hc (0 : Fin 1) r).trans (Cert.AxisFold.column_max L _ h1 hφ1 hacc1 r))

/-- The column sums, repeated down the rows. -/
theorem colsum_apply (E : FVec Ideal S64x2048 .f32) (h1 : S64x2048.Reduces [0] S2048) (hφ2 : FKind.Formats .f32)
    (hacc2 : (0x00000000#32 : BitVec (FTy.f32).bits) = FKind.add.neutral .f32 hφ2) (hc : S2048.ShapeCasts S1x2048)
    (hb : S1x2048.Broadcasts S64x2048) (k : Fin 64) (r : Fin 2048) :
    broadcastTo S64x2048 (shapeCast S1x2048 (multiReduction .add [0] S2048 E 0x00000000#32 h1 hφ2 hacc2) hc) hb (ix2 k r) = ∑ k' : Fin 64, E (ix2 k' r) :=
  (broadcastTo_1b_ab_apply _ hb k r).trans ((shapeCast_a_1a_apply _ hc (0 : Fin 1) r).trans (Cert.Lib.column_sum E h1 hφ2 hacc2 r))

/-- The softmax down the columns of a matrix of logits, with the column maximum subtracted. -/
theorem softmax_cols_apply (L : FVec Ideal S64x2048 .f32) (h1 : S64x2048.Reduces [0] S2048) (hφ1 : FKind.Formats .f32)
    (hacc1 : (0xFF800000#32 : BitVec (FTy.f32).bits) = FKind.maximumf.neutral .f32 hφ1) (hc : S2048.ShapeCasts S1x2048)
    (hb : S1x2048.Broadcasts S64x2048) (hφ2 : FKind.Formats .f32)
    (hacc2 : (0x00000000#32 : BitVec (FTy.f32).bits) = FKind.add.neutral .f32 hφ2) (k : Fin 64) (r : Fin 2048) :
    divf (exp (subf L (broadcastTo S64x2048 (shapeCast S1x2048 (multiReduction .maximumf [0] S2048 L 0xFF800000#32 h1 hφ1 hacc1) hc) hb)))
      (broadcastTo S64x2048 (shapeCast S1x2048 (multiReduction .add [0] S2048
        (exp (subf L (broadcastTo S64x2048 (shapeCast S1x2048 (multiReduction .maximumf [0] S2048 L 0xFF800000#32 h1 hφ1 hacc1) hc) hb)))
        0x00000000#32 h1 hφ2 hacc2) hc) hb) (ix2 k r)
      = Ideal.div (Ideal.exp (L (ix2 k r) - colTop L r)) (∑ k' : Fin 64, Ideal.exp (L (ix2 k' r) - colTop L r)) := by
  have hT := fun k' : Fin 64 => coltop_apply L h1 hφ1 hacc1 hc hb k' r
  have hS := colsum_apply (exp (subf L (broadcastTo S64x2048 (shapeCast S1x2048 (multiReduction .maximumf [0] S2048 L 0xFF800000#32 h1 hφ1 hacc1) hc) hb))) h1 hφ2 hacc2 hc hb k r
  refine (congrArg (Ideal.div _) hS).trans ?_
  refine congrArg₂ Ideal.div (congrArg (fun t => Ideal.exp (L (ix2 k r) - t)) (hT k)) ?_
  exact Finset.sum_congr rfl fun k' _ => congrArg (fun t => Ideal.exp (L (ix2 k' r) - t)) (hT k')

/-- The logits of the tile: code words down the rows, the tile's rows along the lanes. -/
theorem logits_apply (hred : S2048x512.Reduces [1] S2048) (hφ : FKind.Formats .f32)
    (hacc : (0x00000000#32 : BitVec (FTy.f32).bits) = FKind.add.neutral .f32 hφ) (hc1 : S2048.ShapeCasts S2048x1)
    (ht : S2048x1.Transposes [1, 0] S1x2048) (hb1 : S1x2048.Broadcasts S64x2048) (hc2 : S64x1.ShapeCasts S64x1)
    (hb2 : S64x1.Broadcasts S64x2048) (hbf : FTy.bf16.bits < FTy.f32.bits) (k : Fin 64) (r : Fin 2048) :
    mulf (sqrt (maximumf (subf (addf
        (broadcastTo S64x2048 (transpose S1x2048 [1, 0] (shapeCast S2048x1 (multiReduction .add [1] S2048 (mulf (k0_pay6 (F := Ideal) v3) (k0_pay6 (F := Ideal) v3)) 0x00000000#32 hred hφ hacc) hc1) ht) hb1)
        (broadcastTo S64x2048 (shapeCast S64x1 v6 hc2) hb2))
        (mulf (broadcast S64x2048 (FloatOps.ofBits (F := Ideal) .f32 0x40000000#32))
          (matmul dot_S64x512_S2048x512_S64x2048_1_1_0_0_n_n none (truncf .bf16 v5 hbf) (k0_pay7 (F := Ideal) v3) (constant S64x2048 .f32 0x00000000#32))))
        (broadcast S64x2048 (FloatOps.ofBits (F := Ideal) .f32 0x2B8CBCCC#32))))
      (broadcastTo S64x2048 (shapeCast S64x1 v8 hc2) hb2) (ix2 k r)
      = rlogit (fun d => v3 (ix3 (0 : Fin 1) r d)) v5 (fun k => v6 (ix2 k (0 : Fin 1))) (fun k => v8 (ix2 k (0 : Fin 1))) k := by
  have hA := sqnorm_apply (k0_pay6 (F := Ideal) v3) hred hφ hacc hc1 ht hb1 k r
  simp only [pay6_apply] at hA
  have hB := col_apply v6 hc2 hb2 k r
  have hM := dots_apply v3 v5 hbf k r
  have hS := col_apply v8 hc2 hb2 k r
  dsimp only [rlogit]
  rw [← hA, ← hB, ← hM, ← hS]
  rfl

/-- The softmax weights of the tile: entry (k, r) is the weight of code word k for the tile's row r. -/
theorem pay8_apply (k : Fin 64) (r : Fin 2048) :
    k0_pay8 (F := Ideal) v3 v5 v6 v8 (ix2 k r)
      = rwt (fun d => v3 (ix3 (0 : Fin 1) r d)) v5 (fun k => v6 (ix2 k (0 : Fin 1))) (fun k => v8 (ix2 k (0 : Fin 1))) k := by
  unfold k0_pay8
  dsimp only
  refine (softmax_cols_apply _ _ _ _ _ _ _ _ k r).trans ?_
  have hL := fun k' : Fin 64 => logits_apply v3 v5 v6 v8 reduces_S2048x512_S2048 (.inl rfl) rfl shapeCasts_S2048_S2048x1 transposes_S2048x1_p1_0_S1x2048 broadcasts_S1x2048_S64x2048 shapeCasts_S64x1_S64x1 broadcasts_S64x1_S64x2048 bitsLt_bf16_f32 k' r
  unfold colTop
  simp only [hL]
  rfl

/-- The row sums of the tile's weights, as a column. -/
theorem pay9_apply (k : Fin 64) (u : Fin 1) :
    k0_pay9 (F := Ideal) v3 v5 v6 v8 (ix2 k u) = ∑ r : Fin 2048, k0_pay8 (F := Ideal) v3 v5 v6 v8 (ix2 k r) := by
  unfold k0_pay9
  exact (Cert.Column.shapeCast_a_a1_apply _ _ k u).trans (Cert.AxisFold.row_sum _ _ _ _ k)

/-- The weight-total accumulator's update: what it held plus the tile's row sums. -/
theorem pay1_apply (v38 : FVec Ideal S64x1 .f32) (v39 : Vec Ideal S64x1 .f32) (k : Fin 64) (u : Fin 1) :
    k0_pay1 (F := Ideal) v38 v39 (ix2 k u) = v39 (ix2 k u) + v38 (ix2 k u) := by
  unfold k0_pay1
  exact congrFun (shapeCast_self (addf v39 v38) _) (ix2 k u)

/-- The weighted-sum accumulator's update: what it held plus the weights times the tile's rows. -/
theorem pay2_apply (v10 : FVec Ideal S2048x512 .bf16) (v36 : FVec Ideal S64x2048 .f32) (v46 : Vec Ideal S64x512 .f32)
    (k : Fin 64) (d : Fin 512) :
    k0_pay2 (F := Ideal) v10 v36 v46 (ix2 k d) = v46 (ix2 k d) + ∑ r : Fin 2048, v36 (ix2 k r) * v10 (ix2 r d) := by
  unfold k0_pay2
  refine (congrFun (shapeCast_self _ _) (ix2 k d)).trans ?_
  exact congrArg (v46 (ix2 k d) + ·) (Cert.PlainDot.matmul_zero_apply isPlain none _ _ k d)

/-- The reset value of the weighted-sum accumulator. -/
theorem pay4_apply (k : Fin 64) (d : Fin 512) : k0_pay4 (F := Ideal) (ix2 k d) = 0 := by
  unfold k0_pay4
  exact (congrFun (shapeCast_self _ _) (ix2 k d)).trans Ideal.ofBits_zero_f32

/-- The reset value of the weight-total accumulator. -/
theorem pay5_apply (k : Fin 64) (u : Fin 1) : k0_pay5 (F := Ideal) (ix2 k u) = 0 := by
  unfold k0_pay5
  exact (congrFun (shapeCast_self _ _) (ix2 k u)).trans Ideal.ofBits_zero_f32

/-- The accumulated sum minus the total weight times the code word. -/
theorem resid_apply (v54 : Vec Ideal S64x512 .f32) (v55 : Vec Ideal S64x1 .f32) (hb : S64x1.Broadcasts S64x512)
    (k : Fin 64) (d : Fin 512) :
    subf (F := Ideal) (φ := .f32) v54 (mulf (broadcastTo S64x512 v55 hb) v5) (ix2 k d)
      = v54 (ix2 k d) - v55 (ix2 k (0 : Fin 1)) * v5 (ix2 k d) :=
  congrArg (fun t => v54 (ix2 k d) - t * v5 (ix2 k d)) (Cert.Column.broadcastTo_a1_ab_apply v55 hb k d)

/-- A matrix whose rows are each scaled by the reciprocal square root of max(the row's squared norm, ε). -/
theorem normalise_apply (E : FVec Ideal S64x512 .f32) (hred : S64x512.Reduces [1] S64) (hφ : FKind.Formats .f32)
    (hacc : (0x00000000#32 : BitVec (FTy.f32).bits) = FKind.add.neutral .f32 hφ) (hc : S64.ShapeCasts S64x1)
    (hb : S64x1.Broadcasts S64x512) (k : Fin 64) (d : Fin 512) :
    mulf E (broadcastTo S64x512 (rsqrt (maximumf (shapeCast S64x1 (multiReduction .add [1] S64 (mulf E E) 0x00000000#32 hred hφ hacc) hc)
        (broadcast S64x1 (FloatOps.ofBits (F := Ideal) .f32 0x2B8CBCCC#32)))) hb) (ix2 k d)
      = normalise (fun d' => E (ix2 k d')) d := by
  have hN := Cert.Column.broadcastTo_a1_ab_apply (rsqrt (maximumf (shapeCast S64x1 (multiReduction .add [1] S64 (mulf E E) 0x00000000#32 hred hφ hacc) hc)
        (broadcast S64x1 (FloatOps.ofBits (F := Ideal) .f32 0x2B8CBCCC#32)))) hb k d
  have hR := (Cert.Column.shapeCast_a_a1_apply (multiReduction .add [1] S64 (mulf E E) 0x00000000#32 hred hφ hacc) hc k (0 : Fin 1)).trans
    (Cert.AxisFold.row_sum (mulf E E) hred hφ hacc k)
  refine (congrArg (E (ix2 k d) * ·) hN).trans ?_
  exact congrArg (fun s => E (ix2 k d) * Ideal.rsqrt (max s eps)) hR

/-- The final step: the residual e = acc − total · code word, normalised. -/
theorem pay3_apply (v54 : Vec Ideal S64x512 .f32) (v55 : Vec Ideal S64x1 .f32) (u : Fin 1) (k : Fin 64) (d : Fin 512) :
    k0_pay3 (F := Ideal) v5 v54 v55 (ix3 u k d)
      = normalise (fun d' => v54 (ix2 k d') - v55 (ix2 k (0 : Fin 1)) * v5 (ix2 k d')) d := by
  unfold k0_pay3
  refine (shapeCast_ab_1ab_apply _ _ u k d).trans ?_
  refine (normalise_apply _ _ _ _ _ _ k d).trans ?_
  exact congrArg (fun e => normalise e d) (funext fun d' => resid_apply v5 v54 v55 _ k d')

end Cert.KernelIdeal.Payload

end
-- ==== Proof.Blocks.lean ====
/-
  What each window of the kernel's pipeline holds at a grid point, and where the output's blocks lie.

  The grid has 64 points; point t works on batch t / 2 and on the rows 2048 · (t mod 2) … 2048 · (t mod 2) + 2047.
  The block of x at t is that batch's slab of 2048 rows; the code book, the column of the code words' squared
  norms and the column of scales are whole arrays at every point; the output's block at t is batch t / 2, and
  it is written back at the odd points, so every index of the output lies in the block of a point that
  writes back.
-/
import proofs.«156265_j32469952758287_2_alg».proof.Proof.Gen.KernelIdeal.Value
import proofs.«156265_j32469952758287_2_alg».proof.Proof.Spec
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.ValueIdx Idealize.ShloMosaic.TcCoe
  Idealize.SL.Sem Cert.SoftVQ

variable (m : (ℓ : Loc nD τ sig) → Buf (Elt Ideal) ℓ) (c : Dev nD)

/-! ## The grid's points -/

/-- There are 64 points. -/
theorem point_lt (t : Fin cfg0.N) : t.val < 64 := lt_of_lt_of_eq t.isLt (show cfg0.N = 64 from N_0)

/-- The batch point t works on. -/
def batchOf (t : Fin cfg0.N) : Fin 32 := ⟨t.val / 2, by have := point_lt t; omega⟩

/-- Row r of point t's slab of rows, as a row of the batch. -/
def rowOf (t : Fin cfg0.N) (r : Fin 2048) : Fin 4096 := ⟨2048 * (t.val % 2) + r.val, by have := r.isLt; omega⟩

/-! ## The block indices at every point of the grid -/

/-- The block of x at point t is block (t / 2, t mod 2, 0). -/
theorem index_x : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)

/-- The code book's block is block (0, 0) at every point. -/
theorem index_codes : ∀ t : Fin cfg0.N, win0_1.index t (0 : Fin 2) = 0 ∧ win0_1.index t (1 : Fin 2) = 0 :=
  (by decide +kernel : ∀ t : Fin grid0.N, _)

/-- The squared norms' block is block (0, 0) at every point. -/
theorem index_norms : ∀ t : Fin cfg0.N, win0_2.index t (0 : Fin 2) = 0 ∧ win0_2.index t (1 : Fin 2) = 0 :=
  (by decide +kernel : ∀ t : Fin grid0.N, _)

/-- The scales' block is block (0, 0) at every point. -/
theorem index_scales : ∀ t : Fin cfg0.N, win0_3.index t (0 : Fin 2) = 0 ∧ win0_3.index t (1 : Fin 2) = 0 :=
  (by decide +kernel : ∀ t : Fin grid0.N, _)

/-- The output's block at point t is block (t / 2, 0, 0). -/
theorem index_out : ∀ t : Fin cfg0.N, win0_4.index t (0 : Fin 3) = t.val / 2 ∧ win0_4.index t (1 : Fin 3) = 0
    ∧ win0_4.index t (2 : Fin 3) = 0 :=
  (by decide +kernel : ∀ t : Fin grid0.N, _)

/-! ## The block of x -/

/-- Element (0, r, d) of x's block at point t is x at (t / 2, 2048 · (t mod 2) + r, d). -/
theorem x_block (t : Fin cfg0.N) (r : Fin 2048) (d : Fin 512) :
    (iblk m c 0 t : Vec Ideal S1x2048x512 .f32) (ix3 (0 : Fin 1) r d)
      = m ((c : Thread nD τ).loc main_arg0) (ix3 (batchOf t) (rowOf t r) d) := by
  show V m c main_arg0 (((cfg0.win 0).blk t).view.emb (ix3 (0 : Fin 1) r d)) = _
  rw [V_main_arg0]
  refine congrArg _ ?_
  obtain ⟨e0, e1, e2⟩ := index_x t
  funext a; apply Fin.ext
  match a with
  | ⟨0, _⟩ => show win0_0.index t (0 : Fin 3) * 1 + 1 * 0 = t.val / 2; omega
  | ⟨1, _⟩ => show win0_0.index t (1 : Fin 3) * 2048 + 1 * r.val = 2048 * (t.val % 2) + r.val; omega
  | ⟨2, _⟩ => show win0_0.index t (2 : Fin 3) * 512 + 1 * d.val = d.val; omega

/-! ## The code book -/

/-- The code book's block is the code book. -/
theorem codes_block (t : Fin cfg0.N) (k : Fin 64) (d : Fin 512) :
    (iblk m c 1 t : Vec Ideal S64x512 .f32) (ix2 k d) = m ((c : Thread nD τ).loc main_arg1) (ix2 k d) := by
  show V m c main_arg1 (((cfg0.win 1).blk t).view.emb (ix2 k d)) = _
  rw [V_main_arg1]
  refine congrArg _ ?_
  obtain ⟨e0, e1⟩ := index_codes t
  funext a; apply Fin.ext
  match a with
  | ⟨0, _⟩ => show win0_1.index t (0 : Fin 2) * 64 + 1 * k.val = k.val; omega
  | ⟨1, _⟩ => show win0_1.index t (1 : Fin 2) * 512 + 1 * d.val = d.val; omega

/-! ## Columns made from vectors -/

/-- Entry (k, u) of the column made from a vector of 64 entries is the vector's entry k. -/
theorem column_apply (y : (⟨S64, .f32⟩ : BufTy).Contents (Elt Ideal)) (k : Fin 64) (u : Fin 1) :
    (broadcastInDim S64x1 ![0] bcast_S64_S64x1_0 y : (⟨S64x1, .f32⟩ : BufTy).Contents (Elt Ideal)) (ix2 k u) = y (ix1 k) :=
  broadcastInDim_apply _ bcast_S64_S64x1_0 y (ix2 k u) (ix1 k) (fun a => match a with
    | ⟨0, _⟩ => by show k.val = if (64 : Nat) = 1 then 0 else k.val; rw [if_neg (by decide)])

/-- A sum along the rows of a 64 × 512 array, started from zero, is at k the sum of row k. -/
theorem rowsum_apply (y0 : (⟨S64x512, .f32⟩ : BufTy).Contents (Elt Ideal)) (k : Fin 64) :
    (Host.reduceAdd (F := Ideal) y0 (constant (F := Ideal) S_ .f32 0x00000000#32) reducesTo_S64x512_S64_d1 h_S_
      : (⟨S64, .f32⟩ : BufTy).Contents (Elt Ideal)) (ix1 k) = ∑ d : Fin 512, y0 (ix2 k d) := by
  simp only [Host.reduceAdd, Ideal.hostReduceAdd_def]
  rw [Ideal.hostReduceAdd_single reducesTo_S64x512_S64_d1 (by decide)]
  rw [show (constant (F := Ideal) S_ .f32 0x00000000#32) (Shape.Idx.first h_S_) = (0 : EReal) from Ideal.ofBits_zero_f32,
    zero_add]
  refine Finset.sum_congr rfl fun d _ => ?_
  exact congrArg y0 (funext fun a => Fin.ext (by match a with | ⟨0, _⟩ => rfl | ⟨1, _⟩ => rfl))

/-! ## The squared norms of the code words -/

/-- When the grid is entered, the third window's array is the column of the row sums of the squared code book. -/
theorem norms_array : (V m c main_v2 : S64x1.Idx → EReal)
    = broadcastInDim S64x1 ![0] bcast_S64_S64x1_0
        (Host.reduceAdd (F := Ideal)
          (mulf (m ((c : Thread nD τ).loc main_arg1) : (⟨S64x512, .f32⟩ : BufTy).Contents (Elt Ideal))
            (m ((c : Thread nD τ).loc main_arg1) : (⟨S64x512, .f32⟩ : BufTy).Contents (Elt Ideal)))
          (constant (F := Ideal) S_ .f32 0x00000000#32) reducesTo_S64x512_S64_d1 h_S_) := by
  dsimp only [Gen.V, Gen.hostOps0]; after_results

/-- The block of squared norms holds, at (k, 0), the squared norm of code word k. -/
theorem c2_block (t : Fin cfg0.N) (k : Fin 64) (u : Fin 1) :
    (iblk m c 2 t : Vec Ideal S64x1 .f32) (ix2 k u) = c2 (m ((c : Thread nD τ).loc main_arg1)) k := by
  show V m c main_v2 (((cfg0.win 2).blk t).view.emb (ix2 k u)) = _
  have he : ((cfg0.win 2).blk t).view.emb (ix2 k u) = (ix2 k u : S64x1.Idx) := by
    obtain ⟨e0, e1⟩ := index_norms t
    funext a; apply Fin.ext
    match a with
    | ⟨0, _⟩ => show win0_2.index t (0 : Fin 2) * 64 + 1 * k.val = k.val; omega
    | ⟨1, _⟩ => show win0_2.index t (1 : Fin 2) * 1 + 1 * u.val = u.val; omega
  rw [he, norms_array, column_apply, rowsum_apply]
  rfl

/-! ## The scales -/

/-- When the grid is entered, the fourth window's array is the column of the scales. -/
theorem scales_array : (V m c main_v3 : S64x1.Idx → EReal)
    = broadcastInDim S64x1 ![0] bcast_S64_S64x1_0
        (m ((c : Thread nD τ).loc main_arg2) : (⟨S64, .f32⟩ : BufTy).Contents (Elt Ideal)) := by
  dsimp only [Gen.V, Gen.hostOps0]; after_results

/-- The block of scales holds, at (k, 0), the scale of code word k. -/
theorem scale_block (t : Fin cfg0.N) (k : Fin 64) (u : Fin 1) :
    (iblk m c 3 t : Vec Ideal S64x1 .f32) (ix2 k u) = m ((c : Thread nD τ).loc main_arg2) (ix1 k) := by
  show V m c main_v3 (((cfg0.win 3).blk t).view.emb (ix2 k u)) = _
  have he : ((cfg0.win 3).blk t).view.emb (ix2 k u) = (ix2 k u : S64x1.Idx) := by
    obtain ⟨e0, e1⟩ := index_scales t
    funext a; apply Fin.ext
    match a with
    | ⟨0, _⟩ => show win0_3.index t (0 : Fin 2) * 64 + 1 * k.val = k.val; omega
    | ⟨1, _⟩ => show win0_3.index t (1 : Fin 2) * 1 + 1 * u.val = u.val; omega
  rw [he, scales_array, column_apply]

/-! ## The output's blocks -/

/-- Element (0, k, d) of the output's block at point t is the output's element (t / 2, k, d). -/
theorem out_emb (t : Fin cfg0.N) (u : Fin 1) (k : Fin 64) (d : Fin 512) :
    ((cfg0.win 4).blk t).view.emb (ix3 u k d) = (ix3 (batchOf t) k d : S32x64x512.Idx) := by
  obtain ⟨e0, e1, e2⟩ := index_out t
  have hu : u.val < 1 := u.isLt
  funext a; apply Fin.ext
  match a with
  | ⟨0, _⟩ => show win0_4.index t (0 : Fin 3) * 1 + 1 * u.val = t.val / 2; omega
  | ⟨1, _⟩ => show win0_4.index t (1 : Fin 3) * 64 + 1 * k.val = k.val; omega
  | ⟨2, _⟩ => show win0_4.index t (2 : Fin 3) * 512 + 1 * d.val = d.val; omega

/-- An index of the output is in point t's block iff each coordinate is in the block's range on its axis. -/
theorem mem_blk_out (t : Fin cfg0.N) (i : S32x64x512.Idx) :
    i ∈ ((cfg0.win 4).blk t).view.set ↔ ∀ a : Fin 3, win0_4.index t a * S1x64x512.size a ≤ (i a).val
      ∧ (i a).val < win0_4.index t a * S1x64x512.size a + S1x64x512.size a := by
  show i ∈ ((View.whole main_v4).slice (win0_4.rect t)).set ↔ _
  rw [View.set_slice_whole, Rect.mem_set_unit]
  exact Iff.rfl

/-- Every index of the output lies in the block of a point that writes back: batch b is written at point 2 b + 1. -/
theorem out_cover (i : S32x64x512.Idx) :
    ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 512 := (i 2).isLt
  have hN : cfg0.N = 64 := N_0
  obtain ⟨t, ht⟩ : ∃ t : Fin cfg0.N, t.val = 2 * (i 0).val + 1 := ⟨⟨2 * (i 0).val + 1, by omega⟩, rfl⟩
  refine ⟨t, (flush0_4 t).mpr (by omega), ?_⟩
  rw [mem_blk_out]
  obtain ⟨e0, e1, e2⟩ := index_out t
  intro a
  match a with
  | ⟨0, _⟩ =>
    show win0_4.index t (0 : Fin 3) * 1 ≤ (i 0).val ∧ (i 0).val < win0_4.index t (0 : Fin 3) * 1 + 1; omega
  | ⟨1, _⟩ =>
    show win0_4.index t (1 : Fin 3) * 64 ≤ (i 1).val ∧ (i 1).val < win0_4.index t (1 : Fin 3) * 64 + 64; omega
  | ⟨2, _⟩ =>
    show win0_4.index t (2 : Fin 3) * 512 ≤ (i 2).val ∧ (i 2).val < win0_4.index t (2 : Fin 3) * 512 + 512; omega

end Cert.KernelIdeal.Blocks

end
-- ==== Proof.KernelSide.lean ====
/-
  The encoding kernel's result array, read as the specification.

  The grid runs over (batch, row tile), two tiles of 2048 rows per batch. At the first tile the two
  accumulators are reset and then hold the tile's weighted row sum and its total weights; at the second tile the
  second half is added, and the output block of the batch is the normalised residual of the two totals. A sum over the
  first half plus a sum over the second half of the 4096 rows is the sum over all of them, in the extended reals
  too (only associativity of + and 0 + a = a are used), so the block written for batch b is the specification's
  block b; the blocks written at the odd points cover the result array.
-/
import proofs.«156265_j32469952758287_2_alg».proof.Proof.Gen.KernelIdeal.Value
import proofs.«156265_j32469952758287_2_alg».proof.Proof.Pieces
import proofs.«156265_j32469952758287_2_alg».proof.Proof.Payload
import proofs.«156265_j32469952758287_2_alg».proof.Proof.Blocks
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Enc

open Cert.KernelIdeal Cert.KernelIdeal.Gen Cert.SoftVQ Cert.KernelIdeal.Blocks Cert.KernelIdeal.Payload

variable (m : (ℓ : Loc nD τ sig) → Buf (Elt Ideal) ℓ) (ρ : Dev nD → PrngReg) (c : Dev nD)

/-- The three argument arrays on core c. -/
abbrev argX : S32x4096x512.Idx → EReal := m ((c : Thread nD τ).loc main_arg0)
abbrev argC : S64x512.Idx → EReal := m ((c : Thread nD τ).loc main_arg1)
abbrev argS : S64.Idx → EReal := m ((c : Thread nD τ).loc main_arg2)

/-- The weights the body computes at point t are the specification's, for the point's batch and rows. -/
theorem tile_weights (t : Fin cfg0.N) (k : Fin 64) (r : Fin 2048) :
    (k0_pay8 (F := Ideal) (iblk m c 0 t) (iblk m c 1 t) (iblk m c 2 t) (iblk m c 3 t)) (ix2 k r)
      = wt (argX m c) (argC m c) (argS m c) (batchOf t) (rowOf t r) k := by
  refine (pay8_apply _ _ _ _ k r).trans ?_
  have h1 : (fun d : Fin 512 => (iblk m c 0 t : Vec Ideal S1x2048x512 .f32) (ix3 (0 : Fin 1) r d))
      = fun d => argX m c (ix3 (batchOf t) (rowOf t r) d) := funext fun d => x_block m c t r d
  have h2 : (iblk m c 1 t : Vec Ideal S64x512 .f32) = argC m c := funext fun i => by
    obtain ⟨k', d', rfl⟩ : ∃ (k' : Fin 64) (d' : Fin 512), i = ix2 k' d' := ⟨i 0, i 1, eq_ix2 i⟩
    exact codes_block m c t k' d'
  have h3 : (fun k' : Fin 64 => (iblk m c 2 t : Vec Ideal S64x1 .f32) (ix2 k' (0 : Fin 1))) = c2 (argC m c) :=
    funext fun k' => c2_block m c t k' 0
  have h4 : (fun k' : Fin 64 => (iblk m c 3 t : Vec Ideal S64x1 .f32) (ix2 k' (0 : Fin 1))) = fun k' => argS m c (ix1 k') :=
    funext fun k' => scale_block m c t k' 0
  rw [wt_eq_rwt]
  exact congrFun (congr (congr (congr (congrArg rwt h1) h2) h3) h4) k

/-- One update of the weighted-sum accumulator: what it held plus the point's rows, weighted. -/
theorem accE_tile (t : Fin cfg0.N) (acc : Vec Ideal S64x512 .f32) (k : Fin 64) (d : Fin 512) :
    k0_pay2 (F := Ideal) (k0_pay7 (iblk m c 0 t)) (k0_pay8 (F := Ideal) (iblk m c 0 t) (iblk m c 1 t) (iblk m c 2 t) (iblk m c 3 t)) acc (ix2 k d)
      = acc (ix2 k d) + ∑ r : Fin 2048, wt (argX m c) (argC m c) (argS m c) (batchOf t) (rowOf t r) k
          * argX m c (ix3 (batchOf t) (rowOf t r) d) := by
  refine (pay2_apply _ _ acc k d).trans ?_
  refine congrArg (acc (ix2 k d) + ·) (Finset.sum_congr rfl fun r _ => ?_)
  exact congrArg₂ (· * ·) (tile_weights m c t k r) ((pay7_apply _ r d).trans (x_block m c t r d))

/-- One update of the weight-total accumulator: what it held plus the point's weights. -/
theorem accW_tile (t : Fin cfg0.N) (acc : Vec Ideal S64x1 .f32) (k : Fin 64) (u : Fin 1) :
    k0_pay1 (F := Ideal) (k0_pay9 (F := Ideal) (iblk m c 0 t) (iblk m c 1 t) (iblk m c 2 t) (iblk m c 3 t)) acc (ix2 k u)
      = acc (ix2 k u) + ∑ r : Fin 2048, wt (argX m c) (argC m c) (argS m c) (batchOf t) (rowOf t r) k := by
  refine (pay1_apply _ acc k u).trans ?_
  refine congrArg (acc (ix2 k u) + ·) ((pay9_apply _ _ _ _ k u).trans (Finset.sum_congr rfl fun r _ => ?_))
  exact tile_weights m c t k r

/-- The point before an odd point. -/
def prev (t : Fin cfg0.N) : Fin cfg0.N := ⟨t.val - 1, Nat.lt_of_le_of_lt (Nat.sub_le _ _) t.isLt⟩

/-- After an even point the weighted-sum accumulator holds zero plus the point's contribution. -/
theorem accE_even (s : Fin cfg0.N) (h0 : s.val % 2 = 0) (h1 : ¬s.val % 2 = 1) :
    (outsAt0 m c s.val s.isLt).2.1
      = k0_pay2 (F := Ideal) (k0_pay7 (iblk m c 0 s)) (k0_pay8 (F := Ideal) (iblk m c 0 s) (iblk m c 1 s) (iblk m c 2 s) (iblk m c 3 s)) (k0_pay4 (F := Ideal)) := by
  rw [outsAt0_A m c s h0 h1]
  dsimp only
  exact Pieces.accE_A (F := Ideal) c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) (iblk m c 0 s) (iblk m c 1 s) (iblk m c 2 s) (iblk m c 3 s) ((hcond0_0 s).mpr h0) (fun h => h1 ((hcond0_1 s).mp h))

/-- After an even point the weight-total accumulator holds zero plus the point's weights. -/
theorem accW_even (s : Fin cfg0.N) (h0 : s.val % 2 = 0) (h1 : ¬s.val % 2 = 1) :
    (outsAt0 m c s.val s.isLt).2.2
      = k0_pay1 (F := Ideal) (k0_pay9 (F := Ideal) (iblk m c 0 s) (iblk m c 1 s) (iblk m c 2 s) (iblk m c 3 s)) (k0_pay5 (F := Ideal)) := by
  rw [outsAt0_A m c s h0 h1]
  dsimp only
  exact Pieces.accW_A (F := Ideal) c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) (iblk m c 0 s) (iblk m c 1 s) (iblk m c 2 s) (iblk m c 3 s) ((hcond0_0 s).mpr h0) (fun h => h1 ((hcond0_1 s).mp h))

/-- What the output's staging buffer holds after an odd point, over what the point before left in the accumulators. -/
theorem out_odd_over (t : Fin cfg0.N) (h0 : ¬t.val % 2 = 0) (h1 : t.val % 2 = 1) :
    (outsAt0 m c t.val t.isLt).1
      = k0_pay3 (F := Ideal) (iblk m c 1 t)
          (k0_pay2 (F := Ideal) (k0_pay7 (iblk m c 0 t)) (k0_pay8 (F := Ideal) (iblk m c 0 t) (iblk m c 1 t) (iblk m c 2 t) (iblk m c 3 t))
            (outsAt0 m c (t.val - 1) (Nat.lt_of_le_of_lt (Nat.sub_le _ _) t.isLt)).2.1)
          (k0_pay1 (F := Ideal) (k0_pay9 (F := Ideal) (iblk m c 0 t) (iblk m c 1 t) (iblk m c 2 t) (iblk m c 3 t))
            (outsAt0 m c (t.val - 1) (Nat.lt_of_le_of_lt (Nat.sub_le _ _) t.isLt)).2.2) := by
  rw [outsAt0_B m c t h0 h1]
  dsimp only
  exact Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)
    (outsAt0 m c (t.val - 1) (Nat.lt_of_le_of_lt (Nat.sub_le _ _) t.isLt)).2.1
    (outsAt0 m c (t.val - 1) (Nat.lt_of_le_of_lt (Nat.sub_le _ _) t.isLt)).2.2
    (fun h => h0 ((hcond0_0 t).mp h)) ((hcond0_1 t).mpr h1)

/-- What the output's staging buffer holds after an odd point, as the body's arithmetic over the blocks of that point and
    of the point before it. -/
theorem out_odd (t : Fin cfg0.N) (h0 : ¬t.val % 2 = 0) (h1 : t.val % 2 = 1) :
    (outsAt0 m c t.val t.isLt).1
      = k0_pay3 (F := Ideal) (iblk m c 1 t)
          (k0_pay2 (F := Ideal) (k0_pay7 (iblk m c 0 t)) (k0_pay8 (F := Ideal) (iblk m c 0 t) (iblk m c 1 t) (iblk m c 2 t) (iblk m c 3 t))
            (k0_pay2 (F := Ideal) (k0_pay7 (iblk m c 0 (prev t))) (k0_pay8 (F := Ideal) (iblk m c 0 (prev t)) (iblk m c 1 (prev t)) (iblk m c 2 (prev t)) (iblk m c 3 (prev t))) (k0_pay4 (F := Ideal))))
          (k0_pay1 (F := Ideal) (k0_pay9 (F := Ideal) (iblk m c 0 t) (iblk m c 1 t) (iblk m c 2 t) (iblk m c 3 t))
            (k0_pay1 (F := Ideal) (k0_pay9 (F := Ideal) (iblk m c 0 (prev t)) (iblk m c 1 (prev t)) (iblk m c 2 (prev t)) (iblk m c 3 (prev t))) (k0_pay5 (F := Ideal)))) := by
  have hp0 : (prev t).val % 2 = 0 := by show (t.val - 1) % 2 = 0; omega
  have hp1 : ¬(prev t).val % 2 = 1 := by show ¬(t.val - 1) % 2 = 1; omega
  have hE := accE_even m c (prev t) hp0 hp1
  have hW := accW_even m c (prev t) hp0 hp1
  rw [out_odd_over m c t h0 h1]
  exact congrArg₂ (fun a b => k0_pay3 (F := Ideal) (iblk m c 1 t)
      (k0_pay2 (F := Ideal) (k0_pay7 (iblk m c 0 t)) (k0_pay8 (F := Ideal) (iblk m c 0 t) (iblk m c 1 t) (iblk m c 2 t) (iblk m c 3 t)) a)
      (k0_pay1 (F := Ideal) (k0_pay9 (F := Ideal) (iblk m c 0 t) (iblk m c 1 t) (iblk m c 2 t) (iblk m c 3 t)) b)) hE hW

/-- The first half of a batch's weighted row sum (accumulated from zero) plus the second half is the whole sum. -/
theorem wsum_split (X : SX.Idx → EReal) (C : SC.Idx → EReal) (S : SS.Idx → EReal) (b : Fin 32) (k : Fin 64) (d : Fin 512) :
    ((0 : EReal) + ∑ r : Fin 2048, wt X C S b ⟨r.val, by have := r.isLt; omega⟩ k * X (ix3 b ⟨r.val, by have := r.isLt; omega⟩ d))
        + ∑ r : Fin 2048, wt X C S b ⟨2048 + r.val, by have := r.isLt; omega⟩ k * X (ix3 b ⟨2048 + r.val, by have := r.isLt; omega⟩ d)
      = wsum X C S b k d := by
  rw [zero_add]
  exact (sum_halves fun n => wt X C S b n k * X (ix3 b n d)).symm

/-- The same for the total weights. -/
theorem wtot_split (X : SX.Idx → EReal) (C : SC.Idx → EReal) (S : SS.Idx → EReal) (b : Fin 32) (k : Fin 64) :
    ((0 : EReal) + ∑ r : Fin 2048, wt X C S b ⟨r.val, by have := r.isLt; omega⟩ k)
        + ∑ r : Fin 2048, wt X C S b ⟨2048 + r.val, by have := r.isLt; omega⟩ k
      = wtot X C S b k := by
  rw [zero_add]
  exact (sum_halves fun n => wt X C S b n k).symm

/-- After an odd point the output's staging buffer holds the specification's block of the point's batch. -/
theorem out_odd_apply (t : Fin cfg0.N) (h0 : ¬t.val % 2 = 0) (h1 : t.val % 2 = 1) (u : Fin 1) (k : Fin 64) (d : Fin 512) :
    ((outsAt0 m c t.val t.isLt).1 : Vec Ideal S1x64x512 .f32) (ix3 u k d)
      = enc (argX m c) (argC m c) (argS m c) (batchOf t) k d := by
  have hb : batchOf (prev t) = batchOf t := Fin.ext (by show (t.val - 1) / 2 = t.val / 2; omega)
  have hr0 : ∀ r : Fin 2048, rowOf (prev t) r = ⟨r.val, by have := r.isLt; omega⟩ := fun r =>
    Fin.ext (by show 2048 * ((t.val - 1) % 2) + r.val = r.val; omega)
  have hr1 : ∀ r : Fin 2048, rowOf t r = ⟨2048 + r.val, by have := r.isLt; omega⟩ := fun r =>
    Fin.ext (by show 2048 * (t.val % 2) + r.val = 2048 + r.val; omega)
  rw [out_odd m c t h0 h1]
  refine (pay3_apply _ _ _ u k d).trans ?_
  rw [enc_eq_normalise]
  refine congrArg (fun e => normalise e d) (funext fun d' => ?_)
  have hE := (accE_tile m c t _ k d').trans
    (congrArg (· + ∑ r : Fin 2048, wt (argX m c) (argC m c) (argS m c) (batchOf t) (rowOf t r) k * argX m c (ix3 (batchOf t) (rowOf t r) d'))
      ((accE_tile m c (prev t) _ k d').trans
        (congrArg (· + ∑ r : Fin 2048, wt (argX m c) (argC m c) (argS m c) (batchOf (prev t)) (rowOf (prev t) r) k * argX m c (ix3 (batchOf (prev t)) (rowOf (prev t) r) d'))
          (pay4_apply k d'))))
  have hW := (accW_tile m c t _ k (0 : Fin 1)).trans
    (congrArg (· + ∑ r : Fin 2048, wt (argX m c) (argC m c) (argS m c) (batchOf t) (rowOf t r) k)
      ((accW_tile m c (prev t) _ k (0 : Fin 1)).trans
        (congrArg (· + ∑ r : Fin 2048, wt (argX m c) (argC m c) (argS m c) (batchOf (prev t)) (rowOf (prev t) r) k)
          (pay5_apply k (0 : Fin 1)))))
  simp only [hb, hr0, hr1] at hE hW
  rw [wsum_split] at hE
  rw [wtot_split] at hW
  rw [hE, hW, codes_block m c t k d']
  rfl

/-- What an odd point writes back is its block of the specification. -/
theorem flushed_eq (t : Fin cfg0.N) (hf : (cfg0.win 4).flush t = true) :
    (dats m 0 c).flushed 4 t
      = ((cfg0.win 4).blk t).view.read (Elt Ideal) (G (argX m c) (argC m c) (argS m c)) := by
  have h1 : t.val % 2 = 1 := (flush0_4 t).mp hf
  have h0 : ¬t.val % 2 = 0 := by omega
  rw [Value.flushed4 m c t]
  funext y
  obtain ⟨u, k, d, rfl⟩ : ∃ (u : Fin 1) (k : Fin 64) (d : Fin 512), y = ix3 u k d := ⟨y 0, y 1, y 2, eq_ix3 y⟩
  show ((outsAt0 m c t.val t.isLt).1 : Vec Ideal S1x64x512 .f32) (ix3 u k d)
    = G (argX m c) (argC m c) (argS m c) (((cfg0.win 4).blk t).view.emb (ix3 u k d))
  rw [out_emb t u k d, G_apply]
  exact out_odd_apply m c t h0 h1 u k d

/-- The result array after the run is the specification. -/
theorem final : (dats m 0 c).arrAt 4 cfg0.N = G (argX m c) (argC m c) (argS m c) :=
  (dats m 0 c).arrAt_eq_of_cover 4 (G (argX m c) (argC m c) (argS m c)) (fun t hf => flushed_eq m c t hf) (out_cover)

/-- The run of the idealized kernel: the result array at the specification of the argument arrays, the arguments
    unchanged. -/
theorem run : θ_run defs (onTc (τ := τ) (main (F := Ideal))) ⟨m, fun _ => 0, ρ⟩ fun r => ∀ c : Dev nD,
      r.2.mem ((c : Thread nD τ).loc main_v4) = G (argX m c) (argC m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Enc

end
-- ==== Proof.lean ====
/-
  The certificate of the residual soft-assignment encoding kernel against its jnp reference.

  Both programs compute, for a batch b and a code word k, the vector
      e[b,k,:] = Σ_n w[b,n,k] · x[b,n,:] − (Σ_n w[b,n,k]) · c[k,:],
  scaled by the reciprocal square root of max(|e|², ε), where w[b,n,:] is the softmax over the code words of
  sqrt(max(|x[b,n,:]|² + |c[k,:]|² − 2 x[b,n,:]·c[k,:], ε)) · scale[k], taken with the maximum subtracted.
  The kernel visits the 4096 rows of a batch in two tiles of 2048, accumulates the weighted row sum and the total
  weights across the two grid points, and normalises at the second; the reference takes each sum over all 4096 rows
  at once. Over the extended reals the two agree with no condition on the inputs: a sum over the first half plus
  a sum over the second half is the sum over all rows, zero added on the left changes nothing, the maximum of −∞
  and a fold of max that started from −∞ is that fold, and a product of two entries does not depend on the order
  of its factors; the changes of float format on the way into the two matrix products are the identity.
  The specification is Proof/Spec.lean's G; Proof/RefSide.lean reads the reference's run as G, Proof/KernelSide.lean the
  kernel's run (the body case by case in Proof/Pieces.lean, its arithmetic at an index in Proof/Payload.lean, the
  windows' blocks in Proof/Blocks.lean). The three frames are the generated ones; the idealization rewrote nothing.
-/
import proofs.«156265_j32469952758287_2_alg».proof.Defs
import proofs.«156265_j32469952758287_2_alg».proof.Proof.Gen.Kernel
import proofs.«156265_j32469952758287_2_alg».proof.Proof.Gen.Kernel.Skeleton
import proofs.«156265_j32469952758287_2_alg».proof.Proof.Gen.Kernel.Launch
import proofs.«156265_j32469952758287_2_alg».proof.Proof.Gen.Kernel.Points
import proofs.«156265_j32469952758287_2_alg».proof.Proof.Gen.Kernel.Frame
import proofs.«156265_j32469952758287_2_alg».proof.Proof.Gen.KernelIdeal
import proofs.«156265_j32469952758287_2_alg».proof.Proof.Gen.KernelIdeal.Skeleton
import proofs.«156265_j32469952758287_2_alg».proof.Proof.Gen.KernelIdeal.Launch
import proofs.«156265_j32469952758287_2_alg».proof.Proof.Gen.KernelIdeal.Points
import proofs.«156265_j32469952758287_2_alg».proof.Proof.Gen.KernelIdeal.Frame
import proofs.«156265_j32469952758287_2_alg».proof.Proof.Gen.ReferenceIdeal
import proofs.«156265_j32469952758287_2_alg».proof.Proof.Gen.Pre_finite_inputs
import proofs.«156265_j32469952758287_2_alg».proof.Proof.Gen.KernelIdeal.Value
import proofs.«156265_j32469952758287_2_alg».proof.Proof.Gen.ReferenceIdeal.Run
import proofs.«156265_j32469952758287_2_alg».proof.Proof.Gen.ReferenceIdeal.Read
import proofs.«156265_j32469952758287_2_alg».proof.Proof.RefSide
import proofs.«156265_j32469952758287_2_alg».proof.Proof.KernelSide
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- And the reference: its run, with the result forgotten. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- Both runs end at the specification of arguments that agree. -/
theorem algebraic : Cert.algebraic_KernelIdeal_ReferenceIdeal := by
  intro m ρ m' ρ' _ hagree
  refine ⟨fun c => Cert.SoftVQ.G (Cert.KernelIdeal.Enc.argX m c) (Cert.KernelIdeal.Enc.argC m c) (Cert.KernelIdeal.Enc.argS m c),
    Cert.KernelIdeal.Enc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.SoftVQ.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
